-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S_ : Shape := ⟨0, ![]⟩
abbrev S32x4096 : Shape := ⟨2, ![32, 4096]⟩

class Facts : Prop where
  bcast_S_S32x4096 : S_.BroadcastsInDim S32x4096 (![] : Fin 0 → Fin S32x4096.rank)
  reducesTo_S32x4096_S_d0_1 : S32x4096.ReducesTo [0, 1] S_
  h_S_ : 0 < S_.numel
  reducesTo_S_S_d : S_.ReducesTo [] S_

variable [Facts]

def fn {F : FTy → Type} [FloatOps F] (main_arg0 : IVec S_ 32) (main_arg1 : FVec F S32x4096 .f32) : IVec S_ 1 :=
  let main_v0 : FVec F S32x4096 .f32 := Host.absf main_arg1
  let main_cst : FVec F S_ .f32 := constant S_ .f32 0x7F800000#32
  let main_v1 : FVec F S32x4096 .f32 := broadcastInDim S32x4096 ![] bcast_S_S32x4096 main_cst
  let main_v2 : IVec S32x4096 1 := cmpf .olt main_v0 main_v1
  let main_c : IVec S_ 1 := constantI S_ 1 1#1
  let main_v3 : IVec S_ 1 := (fun x v => Host.reduce IntOp.andi x v reducesTo_S32x4096_S_d0_1 h_S_) main_v2 main_c
  let main_c_0 : IVec S_ 32 := constantI S_ 32 16#32
  let main_v4 : IVec S_ 1 := cmpi .sge main_arg0 main_c_0
  let main_c_1 : IVec S_ 32 := constantI S_ 32 16#32
  let main_v5 : IVec S_ 1 := cmpi .sle main_arg0 main_c_1
  let main_v6 : IVec S_ 1 := andi main_v4 main_v5
  let main_c_2 : IVec S_ 1 := constantI S_ 1 1#1
  let main_v7 : IVec S_ 1 := (fun x v => Host.reduce IntOp.andi x v reducesTo_S_S_d h_S_) main_v6 main_c_2
  let main_v8 : IVec S_ 1 := andi main_v3 main_v7
  main_v8
-- ==== Kernel.lean ====
abbrev S_ : Shape := ⟨0, ![]⟩
abbrev S32x4096 : Shape := ⟨2, ![32, 4096]⟩
abbrev S1 : Shape := ⟨1, ![1]⟩
abbrev S4096 : Shape := ⟨1, ![4096]⟩
abbrev S1x4096 : Shape := ⟨2, ![1, 4096]⟩

abbrev nBuf : Table → Nat
  | .hbm => 4
  | .local .scScalar .smem => 1
  | _ => 0

abbrev bufTy : (tb : Table) → Fin (nBuf tb) → BufTy
  | .hbm, ⟨0, _⟩ => ⟨S_, .i32⟩
  | .hbm, ⟨1, _⟩ => ⟨S32x4096, .f32⟩
  | .hbm, ⟨2, _⟩ => ⟨S1, .i32⟩
  | .hbm, ⟨3, _⟩ => ⟨S4096, .f32⟩
  | .local .scScalar .smem, ⟨0, _⟩ => ⟨S1, .i32⟩
  | _, _ => ⟨S_, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 2 → Bool
  | ⟨0, _⟩ => false
  | ⟨1, _⟩ => false
  | _ => false

abbrev sig : RefSig :=
  ofTables nBuf rfl bufTy 4 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v0_scs : Ref sig .scScalar := ⟨.hbm, 2, rfl⟩
abbrev main_arg1_scs : Ref sig .scScalar := ⟨.hbm, 1, rfl⟩
abbrev main_v1_scs : Ref sig .scScalar := ⟨.hbm, 3, rfl⟩
abbrev cc0_scratch0 : Ref sig .scScalar := ⟨.smem, 0, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![1], ![false]⟩

def k0_off1 (v1 : BitVec 32) : Fin 2 → Nat :=
  let c31_i32 : BitVec 32 := 31#32
  let v2 : BitVec 32 := Scalar.minsi v1 c31_i32
  let c0_i32_0 : BitVec 32 := 0#32
  let v3 : BitVec 32 := Scalar.maxsi v2 c0_i32_0
  let c0_i32_1_r1 : BitVec 32 := 0#32
  ![v3.toNat, 0]

def k0_chk1 (v1 : BitVec 32) : Prop :=
  (∀ a, (k0_off1 v1) a + S1x4096.size a ≤ S32x4096.size a)
instance k0_chk1.dec : ∀ (v1 : BitVec 32), Decidable (k0_chk1 v1) := fun v1 => decidable_of_iff' _ (Iff.of_eq (k0_chk1.eq_1 v1))
theorem k0_off1_inb : ∀ (v1 : BitVec 32) (k0_hw1 : k0_chk1 v1), ∀ a, (k0_off1 v1) a + S1x4096.size a ≤ S32x4096.size a := fun v1 k0_hw1 => k0_hw1

abbrev scKind : Fin 1 → Kind := fun | 0 => .scScalar | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 0 | ⟨_ + 1, h⟩ => absurd h (Nat.not_lt.2 (Nat.le_add_left _ _))

class Facts₀ : Prop where
  shapeCasts_S_S1 : S_.ShapeCasts S1
  inb_S1_S1_0 : ∀ a, (![0] : Fin 1 → Nat) a + S1.size a ≤ S1.size a
  numel1_S1 : S1.numel = 1
  squeezes_S1x4096_S4096 : S1x4096.Squeezes S4096
  hcc0_scoped0 : 0 + S_.numel ≤ 2
  hcc0_scoped1 : 1 + S_.numel ≤ 2
  hscKind : ∀ q, scKind q ≠ .tc
  hscCore : ∀ q, scNCore q ≤ τ.nSC
  hscSub : ∀ q, scNSub q ≤ τ.nSub
  hcore0 : grid0.bound 0 ≤ τ.nSC

variable [Facts₀]

abbrev cc0_scoped0 : DmaSems sig S_ := SemArray.consecutive 0 S_ hcc0_scoped0
abbrev cc0_scoped1 : DmaSems sig S_ := SemArray.consecutive 1 S_ hcc0_scoped1

class Facts : Prop extends Facts₀ where

variable [Facts]
-- ==== ReferenceIdeal.lean ====
abbrev S_ : Shape := ⟨0, ![]⟩
abbrev S32x4096 : Shape := ⟨2, ![32, 4096]⟩
abbrev S1 : Shape := ⟨1, ![1]⟩
abbrev S4096 : Shape := ⟨1, ![4096]⟩

abbrev nBuf : Space → Nat
  | .hbm => 21
  | .vmem => 0
  | .smem => 0
  | _ => 0

abbrev bufTy : (tb : Table) → Fin (tcTables nBuf tb) → BufTy
  | .hbm, ⟨0, _⟩ => ⟨S_, .i32⟩
  | .hbm, ⟨1, _⟩ => ⟨S32x4096, .f32⟩
  | .hbm, ⟨2, _⟩ => ⟨S_, .i32⟩
  | .hbm, ⟨3, _⟩ => ⟨S_, .i1⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S1, .i32⟩
  | .hbm, ⟨8, _⟩ => ⟨S1, .i32⟩
  | .hbm, ⟨9, _⟩ => ⟨S_, .i32⟩
  | .hbm, ⟨10, _⟩ => ⟨S1, .i32⟩
  | .hbm, ⟨11, _⟩ => ⟨S1, .i1⟩
  | .hbm, ⟨12, _⟩ => ⟨S1, .i1⟩
  | .hbm, ⟨13, _⟩ => ⟨S1, .i1⟩
  | .hbm, ⟨14, _⟩ => ⟨S_, .i1⟩
  | .hbm, ⟨15, _⟩ => ⟨S_, .i1⟩
  | .hbm, ⟨16, _⟩ => ⟨S4096, .f32⟩
  | .hbm, ⟨17, _⟩ => ⟨S4096, .i1⟩
  | .hbm, ⟨18, _⟩ => ⟨S_, .f32⟩
  | .hbm, ⟨19, _⟩ => ⟨S4096, .f32⟩
  | .hbm, ⟨20, _⟩ => ⟨S4096, .f32⟩
  | _, _ => ⟨S_, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_c_0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_c_1 : Ref sig .tc := ⟨.hbm, 8, rfl⟩
abbrev main_call0_c_2 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_c_3 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_cst : Ref sig .tc := ⟨.hbm, 18, rfl⟩
abbrev main_call0_v11 : Ref sig .tc := ⟨.hbm, 19, rfl⟩
abbrev main_v0 : Ref sig .tc := ⟨.hbm, 20, rfl⟩

abbrev nD : Nat := 1
abbrev τ : Topo := Topo.v7x

variable {F : FTy → Type} [FloatOps F]

class Facts₀ : Prop where
  bcast_S_S1 : S_.BroadcastsInDim S1 (![] : Fin 0 → Fin S1.rank)
  reducesTo_S1_S_d0 : S1.ReducesTo [0] S_
  h_S_ : 0 < S_.numel
  bcast_S_S4096 : S_.BroadcastsInDim S4096 (![] : Fin 0 → Fin S4096.rank)
  gather_S32x4096_S1_S4096_0_0_n_n_0_0_14096_wf : GatherDims.WF S32x4096 S1 S4096 [0] [0] [] [0] [] 0 ![1, 4096]

variable [Facts₀]

def gather_S32x4096_S1_S4096_0_0_n_n_0_0_14096 : GatherDims S32x4096 S1 S4096 where
  offsetDims := [0]
  collapsedSliceDims := [0]
  operandBatchingDims := []
  startIndicesBatchingDims := []
  startIndexMap := [0]
  indexVectorDim := 0
  sliceSizes := ![1, 4096]
  wf := gather_S32x4096_S1_S4096_0_0_n_n_0_0_14096_wf

class Facts : Prop extends Facts₀ where

variable [Facts]
-- ==== Proof.PreIdx.lean ====
/-
  What the precondition says of the index input: `input_domain` is the conjunction of "every table entry is finite"
  and "16 ≤ idx ∧ idx ≤ 16" (signed); where it is all ones, the index scalar holds sixteen. Only the second conjunct
  is used: the kernel and the reference move table entries and compute nothing with them.
-/
import proofs.«219459_g11441792877034_week1_w4_526_11_alg».proof.Pre_input_domain
import proofs.«219459_g11441792877034_week1_w4_526_11_alg».proof.Proof.Gen.Pre_input_domain
import Idealize.ShloMosaic.Lib.ReduceAll
import Idealize.ShloMosaic.Lib.Affine
import Idealize.ShloMosaic.Lib.ValueIdx

namespace Cert.Proof.PreIdx

open Idealize.ShloMosaic Cert.Pre_input_domain

/-- The scalar shape has one index. -/
instance : Subsingleton S_.Idx := ⟨fun a b => funext fun d => d.elim0⟩

/-- A signed word that is at least sixteen and at most sixteen is sixteen. -/
theorem ofBool_one {b : Bool} (h : BitVec.ofBool b = 1#1) : b = true := by
  cases b
  · exact absurd h (by decide)
  · rfl

theorem word_sixteen (x : BitVec 32) (hge : IntOp.cmpi .sge x 16#32 = 1#1) (hle : IntOp.cmpi .sle x 16#32 = 1#1) : x = 16#32 := by
  have h1 : (16#32 : BitVec 32).sle x = true := ofBool_one hge
  have h2 : x.sle 16#32 = true := ofBool_one hle
  rw [BitVec.sle_iff_toInt_le] at h1 h2
  have h16 : (16#32 : BitVec 32).toInt = 16 := by decide
  rw [h16] at h1 h2
  exact BitVec.eq_of_toInt_eq (by rw [h16]; omega)

/-- Where `input_domain` is all ones, the index scalar holds sixteen. -/
theorem idx_sixteen {F : FTy → Type} [FloatOps F] (a : IVec S_ 32) (t : FVec F S32x4096 .f32)
    (h : Cert.Pre_input_domain.fn (F := F) a t = fun _ => 1#1) : a = fun _ => (16#32 : BitVec 32) := by
  have h0 := congrFun h ValueIdx.ix0
  dsimp only [Cert.Pre_input_domain.fn] at h0
  have h7 := (IntOp.andi_eq_one.mp h0).2
  have h6 := Host.reduce_andi_all _ _ _ _ _ h7 ValueIdx.ix0
  obtain ⟨hge, hle⟩ := IntOp.andi_eq_one.mp h6
  funext i
  obtain rfl := ValueIdx.eq_ix0 i
  exact word_sixteen _ hge hle

end Cert.Proof.PreIdx
-- ==== Proof.Spec.lean ====
/-
  The specification both programs meet: the result is ROW SIXTEEN of the table. The table has 32 rows of 4096
  entries; entry `j` of the result is entry `(16, j)` of the table. (The index input is pinned to 16 by the
  precondition; the kernel clamps it into [0, 31], the reference wraps a negative one and masks one out of range:
  at 16 neither does anything.)
-/
import Idealize.ShloMosaic.Lib.ValueIdx

namespace Cert.Proof.Spec

open Idealize.ShloMosaic Idealize.ShloMosaic.ValueIdx

/-- Row sixteen of a 32 × 4096 table, as a vector of 4096 entries. -/
def row16 {α : Type} (x : (⟨2, ![32, 4096]⟩ : Shape).Idx → α) : (⟨1, ![4096]⟩ : Shape).Idx → α :=
  fun j => x (ix2 (n0 := 32) (n1 := 4096) 16 (j 0))

theorem row16_apply {α : Type} (x : (⟨2, ![32, 4096]⟩ : Shape).Idx → α) (j : (⟨1, ![4096]⟩ : Shape).Idx) :
    row16 x j = x (ix2 (n0 := 32) (n1 := 4096) 16 (j 0)) := rfl

end Cert.Proof.Spec
-- ==== Proof.KernelRun.lean ====
/-
  The run of the printed kernel program: one sequencer of the device's first SparseCore copies the index word into its scratch,
  loads it, clamps it into [0, 31] and copies that row of the 32 × 4096 table into the result array; the TensorCore
  re-lays the index scalar as the one-word vector the kernel reads, starts the kernel and waits for it.
  Where the index scalar holds sixteen (the precondition), every weakly fair execution of the device's threads
  terminates, nothing faulting, the two arguments unchanged and the result ROW SIXTEEN of the table
  (Proof/Spec.lean `row16`): the copied word is sixteen, the clamp leaves it, the one-row slice at row 16 with its
  leading unit axis dropped reads entry `j` at `(16, j)`.
  Generic in the float instance: no float operation occurs, the table's entries are only moved.
  The protocol: two copies, each started and waited for by the sequencer itself on a semaphore of its own, one after
  the other; nobody else signals or waits on either, so no schedule is needed and the transfers' counters suffice.
-/
import Idealize.ShloMosaic.Lib.SparseCore.Launch
import Idealize.ShloMosaic.Lib.StableHlo.Run
import Idealize.ShloMosaic.Lib.Pipeline.Kit
import Idealize.ShloMosaic.Lib.Tactic
import proofs.«219459_g11441792877034_week1_w4_526_11_alg».proof.Proof.Gen.Kernel
import proofs.«219459_g11441792877034_week1_w4_526_11_alg».proof.Proof.Gen.Kernel.Skeleton
import proofs.«219459_g11441792877034_week1_w4_526_11_alg».proof.Proof.Spec

noncomputable section

namespace Cert.Proof.KernelRun

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory and the arrays -/

variable (m : (ℓ : Loc nD τ sig) → Buf (Elt F) ℓ) (ρ : Dev nD → PrngReg)

-- the kernel's memrefs, spelt as the body table passes them
local notation "iW" => (Memref.whole Cert.Kernel.main_v0_scs : Memref Cert.Kernel.sig Kind.scScalar Space.hbm Cert.Kernel.S1 EltTy.i32)
local notation "tW" => (Memref.whole Cert.Kernel.main_arg1_scs : Memref Cert.Kernel.sig Kind.scScalar Space.hbm Cert.Kernel.S32x4096 EltTy.f32)
local notation "oW" => (Memref.whole Cert.Kernel.main_v1_scs : Memref Cert.Kernel.sig Kind.scScalar Space.hbm Cert.Kernel.S4096 EltTy.f32)
local notation "sW" => (Memref.whole Cert.Kernel.cc0_scratch0 : Memref Cert.Kernel.sig Kind.scScalar Space.smem Cert.Kernel.S1 EltTy.i32)

/-- The index input, its one-word copy, the table and the result, as the TensorCore names them. -/
abbrev aLoc (d : Dev nD) : Loc nD τ sig := (SparseCore.T d).loc main_arg0
abbrev iLoc (d : Dev nD) : Loc nD τ sig := (SparseCore.T d).loc main_v0
abbrev tLoc (d : Dev nD) : Loc nD τ sig := (SparseCore.T d).loc main_arg1
abbrev oLoc (d : Dev nD) : Loc nD τ sig := (SparseCore.T d).loc main_v1

variable [FloatOps F]

/-- The one-word copy of the index holds sixteen. -/
abbrev sixteen (d : Dev nD) : Buf (Elt F) (iLoc d) := fun _ => (16#32 : BitVec 32)

/-- The result the kernel leaves: row sixteen of the table as launched. -/
abbrev rowOut (d : Dev nD) : Buf (Elt F) (oLoc d) := Cert.Proof.Spec.row16 (m (tLoc d))

abbrev iPts (d : Dev nD) : sProp 𝕄 := iLoc d ↦{fullShare} sixteen (F := F) d
abbrev tPts (d : Dev nD) : sProp 𝕄 := tLoc d ↦{fullShare} m (tLoc d)
abbrev oPts (d : Dev nD) (f : Buf (Elt F) (oLoc d)) : sProp 𝕄 := oLoc d ↦{fullShare} f

/-- Call 0's payloads: the index word, the table and the result array go to the one sequencer; they come back with
    the result at row sixteen. -/
def P : (K (F := F)).Pay (nD := nD) (Val := Elt F) (Name := ℕ) (U := UU) where
  st := fun _ d _ => iprop(iPts (F := F) d ∗ tPts m d ∗ ∃ f, oPts d f)
  dn := fun _ d _ => iprop(iPts (F := F) d ∗ tPts m d ∗ oPts d (rowOut m d))
  go := fun _ _ _ _ => iprop(emp)
  td := fun _ _ _ _ => iprop(emp)
  x := fun _ _ => iprop(emp)

instance P_storable : (P (F := F) m).IsStorable where
  st _ d c := by unfold P; infer_instance
  dn _ d c := by unfold P; infer_instance
  go _ _ _ _ := by unfold P; infer_instance
  td _ _ _ _ := by unfold P; infer_instance

/-! ## The kernel's body on the sequencer -/

section Body

variable (d : Dev nD) (L : grid0.Coords)

/-- The sequencer that runs the body at grid point `L`. -/
abbrev sq : Thread nD τ := S d ((L 0).castLE hcore0)

abbrev c0cell (c : Fin τ.nSC) : GSem nD τ sig := (S d c, .dma cc0_scoped0.sem)
abbrev c1cell (c : Fin τ.nSC) : GSem nD τ sig := (S d c, .dma cc0_scoped1.sem)

omit [FloatOps F] in
/-- The sequencer's own semaphores at zero: the two the body copies on, and the rest. -/
theorem ownSems0_S (c : Fin τ.nSC) :
    (ownSems0 (S d c) : sProp 𝕄)
      = iprop(semVal (c0cell d c) 0 ∗ semVal (c1cell d c) 0
          ∗ bigSep (((ownCells (S d c)).erase (c0cell d c)).erase (c1cell d c)) fun g => semVal g 0) := by
  unfold SparseCore.Cfg.ownSems0
  rw [SparseCore.bigSep_erase' ((mem_ownCells (g := c0cell d c)).mpr ⟨rfl, by
      show (SemLoc.dma cc0_scoped0.sem : SemLoc sig).isScoped .scScalar = true; decide⟩),
    SparseCore.bigSep_erase' (Finset.mem_erase.mpr ⟨by simp [c0cell, c1cell]; decide, (mem_ownCells (g := c1cell d c)).mpr ⟨rfl, by
      show (SemLoc.dma cc0_scoped1.sem : SemLoc sig).isScoped .scScalar = true; decide⟩⟩)]

omit [FloatOps F] in
/-- The sequencer's own buffers: its one-word scratch, at some contents, and the rest. -/
theorem ownBufs_S (c : Fin τ.nSC) :
    (ownBufs (S d c) : sProp 𝕄)
      = iprop((∃ f, (S d c).loc cc0_scratch0 ↦{fullShare} f)
          ∗ bigSep ((ownRefs (τ := τ) (.scScalar c)).erase ((Proc.scScalar c).devRef cc0_scratch0))
              fun b => iprop(∃ f, ((d, b) : Loc nD τ sig) ↦{fullShare} f)) := by
  unfold SparseCore.Cfg.ownBufs
  exact SparseCore.bigSep_erase' (SparseCore.Cfg.mem_ownRefs_of_owner (p := Proc.scScalar c)
    (b := (Proc.scScalar c).devRef cc0_scratch0) rfl)

omit [FloatOps F] in
/-- The arrays as the sequencer's memrefs address them are the TensorCore's arrays. -/
theorem pts_i (c : Fin τ.nSC) (f : Buf (Elt F) (iLoc d)) :
    ((iW).view.loc (S d c) ↦{fullShare} f : sProp 𝕄) = iLoc d ↦{fullShare} f := by
  simp only [Memref.view_whole, View.set_whole]
omit [FloatOps F] in
theorem pts_t (c : Fin τ.nSC) (f : Buf (Elt F) (tLoc d)) :
    ((tW).view.loc (S d c) ↦{fullShare} f : sProp 𝕄) = tLoc d ↦{fullShare} f := by
  simp only [Memref.view_whole, View.set_whole]
omit [FloatOps F] in
theorem pts_o (c : Fin τ.nSC) (f : Buf (Elt F) (oLoc d)) :
    ((oW).view.loc (S d c) ↦{fullShare} f : sProp 𝕄) = oLoc d ↦{fullShare} f := by
  simp only [Memref.view_whole, View.set_whole]
omit [FloatOps F] in
theorem pts_s (c : Fin τ.nSC) (f : Buf (Elt F) ((S d c).loc cc0_scratch0)) :
    ((sW).view.loc (S d c) ↦{fullShare} f : sProp 𝕄) = (S d c).loc cc0_scratch0 ↦{fullShare} f := by
  simp only [Memref.view_whole, View.set_whole]

/-- The clamped word at sixteen is sixteen: the slice starts at row 16, column 0. -/
theorem off_sixteen : k0_off1 (16#32) = ![16, 0] := by decide

omit [FloatOps F] in
/-- Entry `j` of the one-row slice at the clamped word, its leading axis dropped, sits at `(16, j)` of the table:
    dropping the leading unit axis puts `j` behind the coordinate 0, and the slice adds its offsets (16, 0). -/
theorem row_emb (hv : k0_chk1 (16#32)) (j : S4096.Idx) :
    (((tW).slice (Rect.unit (s := S32x4096) (k0_off1 16#32) S1x4096.size (k0_off1_inb _ hv)) (fun _ => rfl)).squeeze S4096 squeezes_S1x4096_S4096).view.emb j
      = ValueIdx.ix2 (n0 := 32) (n1 := 4096) 16 (j 0) := by
  simp only [Memref.view_squeeze, Memref.view_slice, Memref.view_whole, View.emb_reshape, View.emb_slice, View.emb_whole,
    Function.Embedding.trans_apply, Equiv.coe_toEmbedding, Function.Embedding.refl_apply]
  rw [show Shape.reshapeEquiv _ j = _ from Shape.reshapeEquiv_cons_one (n := 1) (d := ![4096]) _ j]
  funext a
  refine Fin.ext ?_
  rw [Rect.emb_apply]
  match a with
  | ⟨0, _⟩ =>
    show k0_off1 (16#32) 0 + 1 * ((0 : Fin 1) : Nat) = 16
    rw [off_sixteen]; rfl
  | ⟨1, _⟩ =>
    show k0_off1 (16#32) 1 + 1 * ((j 0 : Fin 4096) : Nat) = ((j 0 : Fin 4096) : Nat)
    rw [off_sixteen]; simp

omit [FloatOps F] in
/-- The row the body copies out, read at entry `j`, is the table's entry `(16, j)`. -/
theorem row_read (f : Buf (Elt F) (tLoc d)) (hv : k0_chk1 (16#32)) (j : S4096.Idx) :
    View.read (Elt F) (((tW).slice (Rect.unit (s := S32x4096) (k0_off1 16#32) S1x4096.size (k0_off1_inb _ hv)) (fun _ => rfl)).squeeze S4096 squeezes_S1x4096_S4096).view f j
      = Cert.Proof.Spec.row16 f j := by
  rw [View.read_apply, Cert.Proof.Spec.row16_apply, row_emb hv j]
  rfl

/-- The body on the sequencer: the index word copied into the scratch and waited for, the word loaded (sixteen), the
    row at the clamped word copied into the result array and waited for. The arrays come back with the result at row
    sixteen of the table; the scratch and both semaphores go back whole and at zero. -/
theorem body (hF : (K (F := F)).Facts) (O : CellTallies nD τ sig (HIx 1)) (W : Waits sig (HIx 1)) (hO : ∀ g, O g none = 0) :
    iprop(levAts (K (F := F)).L (K (F := F)).lev ∗ emp ∗ (iPts (F := F) d ∗ tPts m d ∗ ∃ f, oPts d f)
        ∗ scopedBufs (sq d L) ∗ scopedSems0 (sq d L) ∗ owes (sq d L) O W)
      ⊢ wp frame (wpE (defs₀ (F := F)) 𝒱₀ (sq d L) none) Set.univ
          (cc0_lookup L iW (Memref.isWhole_whole _) tW (Memref.isWhole_whole _) oW (Memref.isWhole_whole _) sW (Memref.isWhole_whole _) cc0_scoped0 cc0_scoped1)
          fun _ => iprop((iPts (F := F) d ∗ tPts m d ∗ oPts d (rowOut m d)) ∗ scopedBufs (sq d L) ∗ scopedSems0 (sq d L)
            ∗ ∃ W', ⌜∀ p ∈ W', p ∈ W ∨ p.2 = none⌝ ∗ owes (sq d L) O W') := by
  simp only [cc0_lookup_eq_skeleton]; unfold cc0_lookup_skel
  iintro ⟨#Hlv, -, ⟨Hi, Ht, %fo, Ho⟩, Hsb, Hss, HO⟩
  ihave Hss' := (SparseCore.Cfg.scopedSems0_S_elim (Val := Elt F) d ((L 0).castLE hcore0)) $$ Hss
  icases Hss' with ⟨Hown, Hsubs⟩
  ihave Hown' := (Entails.of_eq (ownSems0_S (F := F) d ((L 0).castLE hcore0))) $$ Hown
  icases Hown' with ⟨Hsem0, Hsem1, Hrest⟩
  ihave Hsb' := ((K (F := F)).scopedBufs_S_elim hF d ((L 0).castLE hcore0)) $$ Hsb
  icases Hsb' with ⟨Hbufs, Hsubb⟩
  ihave Hbufs' := (Entails.of_eq (ownBufs_S (F := F) d ((L 0).castLE hcore0))) $$ Hbufs
  icases Hbufs' with ⟨⟨%fs, Hs⟩, Hbrest⟩
  ihave Hmw := ((K (F := F)).mayWaits_none (thr := sq d L) hO) $$ Hlv
  ihave Hi' := (Entails.of_eq (pts_i (F := F) d ((L 0).castLE hcore0) _).symm) $$ Hi
  ihave Ht' := (Entails.of_eq (pts_t (F := F) d ((L 0).castLE hcore0) _).symm) $$ Ht
  ihave Ho' := (Entails.of_eq (pts_o (F := F) d ((L 0).castLE hcore0) _).symm) $$ Ho
  ihave Hs' := (Entails.of_eq (pts_s (F := F) d ((L 0).castLE hcore0) _).symm) $$ Hs
  sl_exec
  -- the loaded word is the copied index word, sixteen; so the second copy carried row sixteen of the table
  have hword : body.sl.r (F := F) d L fs = (16#32 : BitVec 32) := by
    unfold body.sl.r
    refine (congrFun (Memref.readAt_unit_zero (Elt F) cc0_scratch0 (off := ![0])
      (funext fun a => by match a with | ⟨0, _⟩ => rfl) inb_S1_S1_0 _) _).trans ?_
    exact (congrFun (View.write_whole_univ (Val := Elt F) cc0_scratch0 fs (body.sl.dma0 d)) _).trans rfl
  have hrow : body.sl.dma1 (F := F) m d L fs = rowOut m d := by
    unfold body.sl.dma1
    generalize body.sl.r (F := F) d L fs = v at hword ⊢
    subst hword
    funext j
    exact row_read d (m (tLoc d)) (k0_chk1_all _) j
  have hout : View.write (Elt F) (oW).view fo (body.sl.dma1 (F := F) m d L fs) Finset.univ = rowOut m d :=
    (View.write_whole_univ (Val := Elt F) main_v1_scs fo _).trans hrow
  rw [hout]
  sl_step
  isplitl [Hi' Ht' Ho']
  · isplitl [Hi']; · iapply (Entails.of_eq (pts_i (F := F) d _ _)); iexact Hi'
    isplitl [Ht']; · iapply (Entails.of_eq (pts_t (F := F) d _ _)); iexact Ht'
    iapply (Entails.of_eq (pts_o (F := F) d _ _)); iexact Ho'
  isplitl [Hs' Hbrest Hsubb]
  · iapply ((K (F := F)).scopedBufs_S_intro hF d ((L 0).castLE hcore0))
    isplitl [Hs' Hbrest]
    · rw [ownBufs_S]
      isplitl [Hs']
      · iexists _; iapply (Entails.of_eq (pts_s (F := F) d _ _)); iexact Hs'
      · iexact Hbrest
    · iexact Hsubb
  isplitl [Hsem0 Hsem1 Hrest Hsubs]
  · iapply (SparseCore.Cfg.scopedSems0_S_intro (Val := Elt F) d ((L 0).castLE hcore0))
    isplitl [Hsem0 Hsem1 Hrest]
    · rw [ownSems0_S]
      isplitl [Hsem0]; · iexact Hsem0
      isplitl [Hsem1]; · iexact Hsem1
      iexact Hrest
    · iexact Hsubs
  iexists (insert (SemLoc.dma cc0_scoped1.sem, (default : HIx 1)) (insert (SemLoc.dma cc0_scoped0.sem, (default : HIx 1)) W)); isplitr
  · ipureintro; intro p hp
    rcases Finset.mem_insert.mp hp with rfl | hp
    · exact .inr rfl
    rcases Finset.mem_insert.mp hp with rfl | hp
    · exact .inr rfl
    · exact .inl hp
  · iexact HO

end Body

/-! ## The launch theorem's obligation -/

def coordsS (c : Fin (grid0.bound 0)) : grid0.Coords := fun | 0 => c | ⟨_ + 1, h⟩ => absurd h (Nat.not_lt.2 (Nat.le_add_left _ _))

theorem defs₀_scalar (c : Fin τ.nSC) :
    defs₀ (F := F) (.scScalar c) 0 ()
      = SparseCore.onCore hcore0 (fun c => cc0_lookup (coordsS c) iW (Memref.isWhole_whole _) tW (Memref.isWhole_whole _) oW (Memref.isWhole_whole _) sW (Memref.isWhole_whole _) cc0_scoped0 cc0_scoped1) ⟨⟩ c := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The sequencer's obligation at call 0: the body above, at the one grid point. -/
theorem scalarObl : (K (F := F)).ScalarObl (D (F := F)) 𝒱 (P m) v₀ 0 := by
  intro d c O W hO _ _
  -- the kernel owes nothing for a protocol of its own
  simp only [show (P m).ox = fun _ _ => 0 from rfl, add_zero]
  change _ ⊢ wp _ _ _ (Pipeline.liftProg (defs₀ (F := F) (.scScalar ((K (F := F)).core 0 c)) 0 ())) _
  refine BI.Entails.trans ?_ (Pipeline.wp_liftProg (D (F := F)) (Pipeline.defs_kernel pcfgs defs₀) 𝒱₀ _ Set.univ none _ _)
  have hc : ((K (F := F)).core 0 c).val < grid0.bound 0 := c.isLt
  rw [defs₀_scalar]; simp only [SparseCore.onCore, hc, ↓reduceDIte]
  exact (body m d (coordsS ⟨_, hc⟩) facts O W hO).trans (wp_mono frame _ _ fun _ => obl_post)

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

abbrev a' : DevRef τ sig := Proc.devRef .tc (main_arg0 : Ref sig .tc)
abbrev t' : DevRef τ sig := Proc.devRef .tc (main_arg1 : Ref sig .tc)
abbrev i' : DevRef τ sig := Proc.devRef .tc (main_v0 : Ref sig .tc)
abbrev o' : DevRef τ sig := Proc.devRef .tc (main_v1 : Ref sig .tc)
/-- The one host operation before the call: the index scalar re-laid as a one-word vector. -/
abbrev opRs : HloOp τ sig (Elt F) := StableHlo.reshape main_arg0 main_v0 rfl shapeCasts_S_S1

/-- The TensorCore's arrays, all unscoped: the index scalar, the table, the index word, the result. -/
abbrev S4 : Finset (DevRef τ sig) := {a', t', i', o'}

omit [FloatOps F] in
theorem held_S4 (d : Dev nD) (W : Valuation τ sig (Elt F)) :
    (held (T d) S4 W : sProp 𝕄)
      = iprop((aLoc d ↦{fullShare} W a') ∗ (tLoc d ↦{fullShare} W t') ∗ (iLoc d ↦{fullShare} W i') ∗ oLoc d ↦{fullShare} W o') := by
  unfold held S4
  rw [SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄)
      = iprop((aLoc d ↦{fullShare} W main_arg0) ∗ (tLoc d ↦{fullShare} W main_arg1) ∗ (iLoc d ↦{fullShare} W main_v0) ∗ oLoc d ↦{fullShare} W main_v1) := by
  unfold unscopedBufs
  rw [show (Finset.univ.filter fun b : Ref sig .tc => ¬ b.isScoped) = {main_arg0, main_arg1, main_v0, main_v1} by decide,
    SparseCore.bigSep_insert' (by decide), SparseCore.bigSep_insert' (by decide), SparseCore.bigSep_insert' (by decide), bigSep_singleton]

/-- The launch valuation, and the valuation before the call: the re-laid index word written. -/
def V0 (d : Dev nD) : Valuation τ sig (Elt F) := fun b => m (d, b)
def V1 (d : Dev nD) : Valuation τ sig (Elt F) := (opRs (F := F)).result (V0 m d)

theorem unscoped_held (d : Dev nD) : (unscopedBufs d (fun b => m ((SparseCore.T d).loc b)) : sProp 𝕄) = held (T d) S4 (V0 m d) := by
  rw [unscopedBufs_eq, held_S4]; rfl

theorem V1_a (d : Dev nD) : V1 m d a' = m (aLoc d) :=
  (opRs (F := F)).result_of_not_mem _ (show a' ∉ ({i'} : Finset (DevRef τ sig)) by decide)
theorem V1_t (d : Dev nD) : V1 m d t' = m (tLoc d) :=
  (opRs (F := F)).result_of_not_mem _ (show t' ∉ ({i'} : Finset (DevRef τ sig)) by decide)
theorem V1_o (d : Dev nD) : V1 m d o' = m (oLoc d) :=
  (opRs (F := F)).result_of_not_mem _ (show o' ∉ ({i'} : Finset (DevRef τ sig)) by decide)
/-- Where the index scalar holds sixteen, its re-laid copy holds sixteen. -/
theorem V1_i (d : Dev nD) (hidx : m (aLoc d) = fun _ => (16#32 : BitVec 32)) : V1 m d i' = sixteen (F := F) d := by
  unfold V1
  rw [StableHlo.reshape_result]
  funext i
  show shapeCast S1 (m (aLoc d)) shapeCasts_S_S1 i = (16#32 : BitVec 32)
  rw [hidx]; rfl

theorem held_V1 (d : Dev nD) (hidx : m (aLoc d) = fun _ => (16#32 : BitVec 32)) :
    (held (T d) S4 ((opRs (F := F)).result (V0 m d)) : sProp 𝕄)
      = iprop((aLoc d ↦{fullShare} m (aLoc d)) ∗ tPts m d ∗ iPts (F := F) d ∗ oLoc d ↦{fullShare} m (oLoc d)) := by
  show held (SparseCore.T d) S4 (V1 m d) = _
  rw [held_S4, V1_a, V1_t, V1_o, V1_i m d hidx]

theorem st0_eq (d : Dev nD) : (bigSep Finset.univ fun c : Fin ((K (F := F)).nCore 0) => (P m).st 0 d c) = iprop(iPts (F := F) d ∗ tPts m d ∗ ∃ f, oPts d f) :=
  bigSep_univ_of_subsingleton (0 : Fin 1)
theorem dn0_eq (d : Dev nD) : (bigSep Finset.univ fun c : Fin ((K (F := F)).nCore 0) => (P m).dn 0 d c) = iprop(iPts (F := F) d ∗ tPts m d ∗ oPts d (rowOut m d)) :=
  bigSep_univ_of_subsingleton (0 : Fin 1)

theorem hRs : (opRs (F := F)).bufs ⊆ S4 := show ({a', i'} : Finset (DevRef τ sig)) ⊆ S4 by decide

/-- What @main leaves the claim: the index scalar and the table at their launch contents, the result at row sixteen. -/
abbrev FIN (d : Dev nD) : sProp 𝕄 := iprop((aLoc d ↦{fullShare} m (aLoc d)) ∗ tPts m d ∗ oPts d (rowOut m d))

/-- @main on device `d`'s TensorCore: the re-laying of the index scalar, then the call, from the index word, the table
    and the result array, which come back with the result written. -/
theorem hmain (hidx : ∀ d, m (aLoc d) = fun _ => (16#32 : BitVec 32)) (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  iapply (wp_hlo_within 𝒱 (SparseCore.T d) none Set.univ (op := opRs) (S := S4) hRs (V := V0 m d)) $$ [Hb Hheld]
  · isplitl [Hb] <;> iassumption
  iintro ⟨Hb, Hheld⟩
  rw [wp_ret]; imodintro
  ihave Hh := (Entails.of_eq (held_V1 (F := F) m d (hidx d))) $$ Hheld
  icases Hh with ⟨Ha, Ht, Hi, Ho⟩
  iapply ((K (F := F)).wp_run (D (F := F)) 𝒱 (EH := EH) (P := P m) κ d 0) $$ [Hst Ht Hi Ho Hb Ha]
  isplitr; · iexact Hctx
  isplitl [Hst]; · iexact Hst
  isplitl [Hi Ht Ho]
  · rw [st0_eq]
    isplitl [Hi]; · iexact Hi
    isplitl [Ht]; · iexact Ht
    iexists _; iexact Ho
  iintro ⟨Hst, Hdn⟩
  ihave Hdn' := (Entails.of_eq (dn0_eq m d)) $$ Hdn
  icases Hdn' with ⟨-, Ht, Ho⟩
  imodintro
  isplitl [Hst]; · iexact Hst
  isplitl [Ha]; · iexact Ha
  isplitl [Ht]; · iexact Ht
  iexact Ho

def fq (d : Dev nD) (s' : Phys nD τ sig (Elt F)) : Prop :=
  s'.mem.mem (oLoc d) = rowOut m d ∧ s'.mem.mem (aLoc d) = m (aLoc d) ∧ s'.mem.mem (tLoc d) = m (tLoc d)

theorem hfin (d : Dev nD) (s' : Phys nD τ sig (Elt F)) : iprop(FIN m d ∗ SI s') ⊢ (⌜fq m d s'⌝ : sProp 𝕄) := by
  iintro ⟨⟨Ha, Ht, Ho⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := tLoc d) (I := Finset.univ) (q := fullShare) (f := m (tLoc d)))) $$ [HSI Ht]
  · isplitl [HSI] <;> iassumption
  icases H with ⟨%h2, HSI, -⟩
  ihave H := (SI_pointsTo_agree (st := s') (ℓ := oLoc d) (I := Finset.univ) (q := fullShare) (f := rowOut m d)) $$ [HSI Ho]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

/-- The post: the result array holds row sixteen of the table, the two arguments are unchanged. -/
def QC : PUnit × MemSt nD τ sig (Elt F) → Prop := fun r => ∀ c : Dev nD,
  r.2.mem (oLoc c) = rowOut m c ∧ r.2.mem (aLoc c) = m (aLoc c) ∧ r.2.mem (tLoc c) = m (tLoc c)

/-- Every weakly fair execution of the device's threads from a memory whose index scalar holds sixteen terminates,
    nothing faulting, with the result at row sixteen of the table and the arguments unchanged. -/
theorem run_main [∀ e, Nonempty (Elt F e)] (hidx : ∀ d, m (aLoc d) = fun _ => (16#32 : BitVec 32)) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q _ => match q with | 0 => scalarObl m)
    (fun q hq => match q with | 0 => nomatch hq)
    (fun q hq => match q with | 0 => nomatch hq)
    m ρ main (fun _ => iprop(emp)) (FIN m) (u₀ (F := F)) (sep_elim_left.trans (hu₀ m)) (hmain m ρ hidx) (fq m) (hfin m) (QC m) (fun _ h => h)

end Cert.Proof.KernelRun

end
-- ==== Proof.KernelIdealRun.lean ====
/-
  The run of the idealized kernel program (the same text read at the ideal instance: the ideal pass rewrote nothing): one sequencer of the device's first SparseCore copies the index word into its scratch,
  loads it, clamps it into [0, 31] and copies that row of the 32 × 4096 table into the result array; the TensorCore
  re-lays the index scalar as the one-word vector the kernel reads, starts the kernel and waits for it.
  Where the index scalar holds sixteen (the precondition), every weakly fair execution of the device's threads
  terminates, nothing faulting, the two arguments unchanged and the result ROW SIXTEEN of the table
  (Proof/Spec.lean `row16`): the copied word is sixteen, the clamp leaves it, the one-row slice at row 16 with its
  leading unit axis dropped reads entry `j` at `(16, j)`.
  Generic in the float instance: no float operation occurs, the table's entries are only moved.
  The protocol: two copies, each started and waited for by the sequencer itself on a semaphore of its own, one after
  the other; nobody else signals or waits on either, so no schedule is needed and the transfers' counters suffice.
-/
import Idealize.ShloMosaic.Lib.SparseCore.Launch
import Idealize.ShloMosaic.Lib.StableHlo.Run
import Idealize.ShloMosaic.Lib.Pipeline.Kit
import Idealize.ShloMosaic.Lib.Tactic
import proofs.«219459_g11441792877034_week1_w4_526_11_alg».proof.Proof.Gen.KernelIdeal
import proofs.«219459_g11441792877034_week1_w4_526_11_alg».proof.Proof.Gen.KernelIdeal.Skeleton
import proofs.«219459_g11441792877034_week1_w4_526_11_alg».proof.Proof.Spec

noncomputable section

namespace Cert.Proof.KernelIdealRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory and the arrays -/

variable (m : (ℓ : Loc nD τ sig) → Buf (Elt F) ℓ) (ρ : Dev nD → PrngReg)

-- the kernel's memrefs, spelt as the body table passes them
local notation "iW" => (Memref.whole Cert.KernelIdeal.main_v0_scs : Memref Cert.KernelIdeal.sig Kind.scScalar Space.hbm Cert.KernelIdeal.S1 EltTy.i32)
local notation "tW" => (Memref.whole Cert.KernelIdeal.main_arg1_scs : Memref Cert.KernelIdeal.sig Kind.scScalar Space.hbm Cert.KernelIdeal.S32x4096 EltTy.f32)
local notation "oW" => (Memref.whole Cert.KernelIdeal.main_v1_scs : Memref Cert.KernelIdeal.sig Kind.scScalar Space.hbm Cert.KernelIdeal.S4096 EltTy.f32)
local notation "sW" => (Memref.whole Cert.KernelIdeal.cc0_scratch0 : Memref Cert.KernelIdeal.sig Kind.scScalar Space.smem Cert.KernelIdeal.S1 EltTy.i32)

/-- The index input, its one-word copy, the table and the result, as the TensorCore names them. -/
abbrev aLoc (d : Dev nD) : Loc nD τ sig := (SparseCore.T d).loc main_arg0
abbrev iLoc (d : Dev nD) : Loc nD τ sig := (SparseCore.T d).loc main_v0
abbrev tLoc (d : Dev nD) : Loc nD τ sig := (SparseCore.T d).loc main_arg1
abbrev oLoc (d : Dev nD) : Loc nD τ sig := (SparseCore.T d).loc main_v1

variable [FloatOps F]

/-- The one-word copy of the index holds sixteen. -/
abbrev sixteen (d : Dev nD) : Buf (Elt F) (iLoc d) := fun _ => (16#32 : BitVec 32)

/-- The result the kernel leaves: row sixteen of the table as launched. -/
abbrev rowOut (d : Dev nD) : Buf (Elt F) (oLoc d) := Cert.Proof.Spec.row16 (m (tLoc d))

abbrev iPts (d : Dev nD) : sProp 𝕄 := iLoc d ↦{fullShare} sixteen (F := F) d
abbrev tPts (d : Dev nD) : sProp 𝕄 := tLoc d ↦{fullShare} m (tLoc d)
abbrev oPts (d : Dev nD) (f : Buf (Elt F) (oLoc d)) : sProp 𝕄 := oLoc d ↦{fullShare} f

/-- Call 0's payloads: the index word, the table and the result array go to the one sequencer; they come back with
    the result at row sixteen. -/
def P : (K (F := F)).Pay (nD := nD) (Val := Elt F) (Name := ℕ) (U := UU) where
  st := fun _ d _ => iprop(iPts (F := F) d ∗ tPts m d ∗ ∃ f, oPts d f)
  dn := fun _ d _ => iprop(iPts (F := F) d ∗ tPts m d ∗ oPts d (rowOut m d))
  go := fun _ _ _ _ => iprop(emp)
  td := fun _ _ _ _ => iprop(emp)
  x := fun _ _ => iprop(emp)

instance P_storable : (P (F := F) m).IsStorable where
  st _ d c := by unfold P; infer_instance
  dn _ d c := by unfold P; infer_instance
  go _ _ _ _ := by unfold P; infer_instance
  td _ _ _ _ := by unfold P; infer_instance

/-! ## The kernel's body on the sequencer -/

section Body

variable (d : Dev nD) (L : grid0.Coords)

/-- The sequencer that runs the body at grid point `L`. -/
abbrev sq : Thread nD τ := S d ((L 0).castLE hcore0)

abbrev c0cell (c : Fin τ.nSC) : GSem nD τ sig := (S d c, .dma cc0_scoped0.sem)
abbrev c1cell (c : Fin τ.nSC) : GSem nD τ sig := (S d c, .dma cc0_scoped1.sem)

omit [FloatOps F] in
/-- The sequencer's own semaphores at zero: the two the body copies on, and the rest. -/
theorem ownSems0_S (c : Fin τ.nSC) :
    (ownSems0 (S d c) : sProp 𝕄)
      = iprop(semVal (c0cell d c) 0 ∗ semVal (c1cell d c) 0
          ∗ bigSep (((ownCells (S d c)).erase (c0cell d c)).erase (c1cell d c)) fun g => semVal g 0) := by
  unfold SparseCore.Cfg.ownSems0
  rw [SparseCore.bigSep_erase' ((mem_ownCells (g := c0cell d c)).mpr ⟨rfl, by
      show (SemLoc.dma cc0_scoped0.sem : SemLoc sig).isScoped .scScalar = true; decide⟩),
    SparseCore.bigSep_erase' (Finset.mem_erase.mpr ⟨by simp [c0cell, c1cell]; decide, (mem_ownCells (g := c1cell d c)).mpr ⟨rfl, by
      show (SemLoc.dma cc0_scoped1.sem : SemLoc sig).isScoped .scScalar = true; decide⟩⟩)]

omit [FloatOps F] in
/-- The sequencer's own buffers: its one-word scratch, at some contents, and the rest. -/
theorem ownBufs_S (c : Fin τ.nSC) :
    (ownBufs (S d c) : sProp 𝕄)
      = iprop((∃ f, (S d c).loc cc0_scratch0 ↦{fullShare} f)
          ∗ bigSep ((ownRefs (τ := τ) (.scScalar c)).erase ((Proc.scScalar c).devRef cc0_scratch0))
              fun b => iprop(∃ f, ((d, b) : Loc nD τ sig) ↦{fullShare} f)) := by
  unfold SparseCore.Cfg.ownBufs
  exact SparseCore.bigSep_erase' (SparseCore.Cfg.mem_ownRefs_of_owner (p := Proc.scScalar c)
    (b := (Proc.scScalar c).devRef cc0_scratch0) rfl)

omit [FloatOps F] in
/-- The arrays as the sequencer's memrefs address them are the TensorCore's arrays. -/
theorem pts_i (c : Fin τ.nSC) (f : Buf (Elt F) (iLoc d)) :
    ((iW).view.loc (S d c) ↦{fullShare} f : sProp 𝕄) = iLoc d ↦{fullShare} f := by
  simp only [Memref.view_whole, View.set_whole]
omit [FloatOps F] in
theorem pts_t (c : Fin τ.nSC) (f : Buf (Elt F) (tLoc d)) :
    ((tW).view.loc (S d c) ↦{fullShare} f : sProp 𝕄) = tLoc d ↦{fullShare} f := by
  simp only [Memref.view_whole, View.set_whole]
omit [FloatOps F] in
theorem pts_o (c : Fin τ.nSC) (f : Buf (Elt F) (oLoc d)) :
    ((oW).view.loc (S d c) ↦{fullShare} f : sProp 𝕄) = oLoc d ↦{fullShare} f := by
  simp only [Memref.view_whole, View.set_whole]
omit [FloatOps F] in
theorem pts_s (c : Fin τ.nSC) (f : Buf (Elt F) ((S d c).loc cc0_scratch0)) :
    ((sW).view.loc (S d c) ↦{fullShare} f : sProp 𝕄) = (S d c).loc cc0_scratch0 ↦{fullShare} f := by
  simp only [Memref.view_whole, View.set_whole]

/-- The clamped word at sixteen is sixteen: the slice starts at row 16, column 0. -/
theorem off_sixteen : k0_off1 (16#32) = ![16, 0] := by decide

omit [FloatOps F] in
/-- Entry `j` of the one-row slice at the clamped word, its leading axis dropped, sits at `(16, j)` of the table:
    dropping the leading unit axis puts `j` behind the coordinate 0, and the slice adds its offsets (16, 0). -/
theorem row_emb (hv : k0_chk1 (16#32)) (j : S4096.Idx) :
    (((tW).slice (Rect.unit (s := S32x4096) (k0_off1 16#32) S1x4096.size (k0_off1_inb _ hv)) (fun _ => rfl)).squeeze S4096 squeezes_S1x4096_S4096).view.emb j
      = ValueIdx.ix2 (n0 := 32) (n1 := 4096) 16 (j 0) := by
  simp only [Memref.view_squeeze, Memref.view_slice, Memref.view_whole, View.emb_reshape, View.emb_slice, View.emb_whole,
    Function.Embedding.trans_apply, Equiv.coe_toEmbedding, Function.Embedding.refl_apply]
  rw [show Shape.reshapeEquiv _ j = _ from Shape.reshapeEquiv_cons_one (n := 1) (d := ![4096]) _ j]
  funext a
  refine Fin.ext ?_
  rw [Rect.emb_apply]
  match a with
  | ⟨0, _⟩ =>
    show k0_off1 (16#32) 0 + 1 * ((0 : Fin 1) : Nat) = 16
    rw [off_sixteen]; rfl
  | ⟨1, _⟩ =>
    show k0_off1 (16#32) 1 + 1 * ((j 0 : Fin 4096) : Nat) = ((j 0 : Fin 4096) : Nat)
    rw [off_sixteen]; simp

omit [FloatOps F] in
/-- The row the body copies out, read at entry `j`, is the table's entry `(16, j)`. -/
theorem row_read (f : Buf (Elt F) (tLoc d)) (hv : k0_chk1 (16#32)) (j : S4096.Idx) :
    View.read (Elt F) (((tW).slice (Rect.unit (s := S32x4096) (k0_off1 16#32) S1x4096.size (k0_off1_inb _ hv)) (fun _ => rfl)).squeeze S4096 squeezes_S1x4096_S4096).view f j
      = Cert.Proof.Spec.row16 f j := by
  rw [View.read_apply, Cert.Proof.Spec.row16_apply, row_emb hv j]
  rfl

/-- The body on the sequencer: the index word copied into the scratch and waited for, the word loaded (sixteen), the
    row at the clamped word copied into the result array and waited for. The arrays come back with the result at row
    sixteen of the table; the scratch and both semaphores go back whole and at zero. -/
theorem body (hF : (K (F := F)).Facts) (O : CellTallies nD τ sig (HIx 1)) (W : Waits sig (HIx 1)) (hO : ∀ g, O g none = 0) :
    iprop(levAts (K (F := F)).L (K (F := F)).lev ∗ emp ∗ (iPts (F := F) d ∗ tPts m d ∗ ∃ f, oPts d f)
        ∗ scopedBufs (sq d L) ∗ scopedSems0 (sq d L) ∗ owes (sq d L) O W)
      ⊢ wp frame (wpE (defs₀ (F := F)) 𝒱₀ (sq d L) none) Set.univ
          (cc0_lookup L iW (Memref.isWhole_whole _) tW (Memref.isWhole_whole _) oW (Memref.isWhole_whole _) sW (Memref.isWhole_whole _) cc0_scoped0 cc0_scoped1)
          fun _ => iprop((iPts (F := F) d ∗ tPts m d ∗ oPts d (rowOut m d)) ∗ scopedBufs (sq d L) ∗ scopedSems0 (sq d L)
            ∗ ∃ W', ⌜∀ p ∈ W', p ∈ W ∨ p.2 = none⌝ ∗ owes (sq d L) O W') := by
  simp only [cc0_lookup_eq_skeleton]; unfold cc0_lookup_skel
  iintro ⟨#Hlv, -, ⟨Hi, Ht, %fo, Ho⟩, Hsb, Hss, HO⟩
  ihave Hss' := (SparseCore.Cfg.scopedSems0_S_elim (Val := Elt F) d ((L 0).castLE hcore0)) $$ Hss
  icases Hss' with ⟨Hown, Hsubs⟩
  ihave Hown' := (Entails.of_eq (ownSems0_S (F := F) d ((L 0).castLE hcore0))) $$ Hown
  icases Hown' with ⟨Hsem0, Hsem1, Hrest⟩
  ihave Hsb' := ((K (F := F)).scopedBufs_S_elim hF d ((L 0).castLE hcore0)) $$ Hsb
  icases Hsb' with ⟨Hbufs, Hsubb⟩
  ihave Hbufs' := (Entails.of_eq (ownBufs_S (F := F) d ((L 0).castLE hcore0))) $$ Hbufs
  icases Hbufs' with ⟨⟨%fs, Hs⟩, Hbrest⟩
  ihave Hmw := ((K (F := F)).mayWaits_none (thr := sq d L) hO) $$ Hlv
  ihave Hi' := (Entails.of_eq (pts_i (F := F) d ((L 0).castLE hcore0) _).symm) $$ Hi
  ihave Ht' := (Entails.of_eq (pts_t (F := F) d ((L 0).castLE hcore0) _).symm) $$ Ht
  ihave Ho' := (Entails.of_eq (pts_o (F := F) d ((L 0).castLE hcore0) _).symm) $$ Ho
  ihave Hs' := (Entails.of_eq (pts_s (F := F) d ((L 0).castLE hcore0) _).symm) $$ Hs
  sl_exec
  -- the loaded word is the copied index word, sixteen; so the second copy carried row sixteen of the table
  have hword : body.sl.r (F := F) d L fs = (16#32 : BitVec 32) := by
    unfold body.sl.r
    refine (congrFun (Memref.readAt_unit_zero (Elt F) cc0_scratch0 (off := ![0])
      (funext fun a => by match a with | ⟨0, _⟩ => rfl) inb_S1_S1_0 _) _).trans ?_
    exact (congrFun (View.write_whole_univ (Val := Elt F) cc0_scratch0 fs (body.sl.dma0 d)) _).trans rfl
  have hrow : body.sl.dma1 (F := F) m d L fs = rowOut m d := by
    unfold body.sl.dma1
    generalize body.sl.r (F := F) d L fs = v at hword ⊢
    subst hword
    funext j
    exact row_read d (m (tLoc d)) (k0_chk1_all _) j
  have hout : View.write (Elt F) (oW).view fo (body.sl.dma1 (F := F) m d L fs) Finset.univ = rowOut m d :=
    (View.write_whole_univ (Val := Elt F) main_v1_scs fo _).trans hrow
  rw [hout]
  sl_step
  isplitl [Hi' Ht' Ho']
  · isplitl [Hi']; · iapply (Entails.of_eq (pts_i (F := F) d _ _)); iexact Hi'
    isplitl [Ht']; · iapply (Entails.of_eq (pts_t (F := F) d _ _)); iexact Ht'
    iapply (Entails.of_eq (pts_o (F := F) d _ _)); iexact Ho'
  isplitl [Hs' Hbrest Hsubb]
  · iapply ((K (F := F)).scopedBufs_S_intro hF d ((L 0).castLE hcore0))
    isplitl [Hs' Hbrest]
    · rw [ownBufs_S]
      isplitl [Hs']
      · iexists _; iapply (Entails.of_eq (pts_s (F := F) d _ _)); iexact Hs'
      · iexact Hbrest
    · iexact Hsubb
  isplitl [Hsem0 Hsem1 Hrest Hsubs]
  · iapply (SparseCore.Cfg.scopedSems0_S_intro (Val := Elt F) d ((L 0).castLE hcore0))
    isplitl [Hsem0 Hsem1 Hrest]
    · rw [ownSems0_S]
      isplitl [Hsem0]; · iexact Hsem0
      isplitl [Hsem1]; · iexact Hsem1
      iexact Hrest
    · iexact Hsubs
  iexists (insert (SemLoc.dma cc0_scoped1.sem, (default : HIx 1)) (insert (SemLoc.dma cc0_scoped0.sem, (default : HIx 1)) W)); isplitr
  · ipureintro; intro p hp
    rcases Finset.mem_insert.mp hp with rfl | hp
    · exact .inr rfl
    rcases Finset.mem_insert.mp hp with rfl | hp
    · exact .inr rfl
    · exact .inl hp
  · iexact HO

end Body

/-! ## The launch theorem's obligation -/

def coordsS (c : Fin (grid0.bound 0)) : grid0.Coords := fun | 0 => c | ⟨_ + 1, h⟩ => absurd h (Nat.not_lt.2 (Nat.le_add_left _ _))

theorem defs₀_scalar (c : Fin τ.nSC) :
    defs₀ (F := F) (.scScalar c) 0 ()
      = SparseCore.onCore hcore0 (fun c => cc0_lookup (coordsS c) iW (Memref.isWhole_whole _) tW (Memref.isWhole_whole _) oW (Memref.isWhole_whole _) sW (Memref.isWhole_whole _) cc0_scoped0 cc0_scoped1) ⟨⟩ c := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The sequencer's obligation at call 0: the body above, at the one grid point. -/
theorem scalarObl : (K (F := F)).ScalarObl (D (F := F)) 𝒱 (P m) v₀ 0 := by
  intro d c O W hO _ _
  -- the kernel owes nothing for a protocol of its own
  simp only [show (P m).ox = fun _ _ => 0 from rfl, add_zero]
  change _ ⊢ wp _ _ _ (Pipeline.liftProg (defs₀ (F := F) (.scScalar ((K (F := F)).core 0 c)) 0 ())) _
  refine BI.Entails.trans ?_ (Pipeline.wp_liftProg (D (F := F)) (Pipeline.defs_kernel pcfgs defs₀) 𝒱₀ _ Set.univ none _ _)
  have hc : ((K (F := F)).core 0 c).val < grid0.bound 0 := c.isLt
  rw [defs₀_scalar]; simp only [SparseCore.onCore, hc, ↓reduceDIte]
  exact (body m d (coordsS ⟨_, hc⟩) facts O W hO).trans (wp_mono frame _ _ fun _ => obl_post)

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

abbrev a' : DevRef τ sig := Proc.devRef .tc (main_arg0 : Ref sig .tc)
abbrev t' : DevRef τ sig := Proc.devRef .tc (main_arg1 : Ref sig .tc)
abbrev i' : DevRef τ sig := Proc.devRef .tc (main_v0 : Ref sig .tc)
abbrev o' : DevRef τ sig := Proc.devRef .tc (main_v1 : Ref sig .tc)
/-- The one host operation before the call: the index scalar re-laid as a one-word vector. -/
abbrev opRs : HloOp τ sig (Elt F) := StableHlo.reshape main_arg0 main_v0 rfl shapeCasts_S_S1

/-- The TensorCore's arrays, all unscoped: the index scalar, the table, the index word, the result. -/
abbrev S4 : Finset (DevRef τ sig) := {a', t', i', o'}

omit [FloatOps F] in
theorem held_S4 (d : Dev nD) (W : Valuation τ sig (Elt F)) :
    (held (T d) S4 W : sProp 𝕄)
      = iprop((aLoc d ↦{fullShare} W a') ∗ (tLoc d ↦{fullShare} W t') ∗ (iLoc d ↦{fullShare} W i') ∗ oLoc d ↦{fullShare} W o') := by
  unfold held S4
  rw [SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄)
      = iprop((aLoc d ↦{fullShare} W main_arg0) ∗ (tLoc d ↦{fullShare} W main_arg1) ∗ (iLoc d ↦{fullShare} W main_v0) ∗ oLoc d ↦{fullShare} W main_v1) := by
  unfold unscopedBufs
  rw [show (Finset.univ.filter fun b : Ref sig .tc => ¬ b.isScoped) = {main_arg0, main_arg1, main_v0, main_v1} by decide,
    SparseCore.bigSep_insert' (by decide), SparseCore.bigSep_insert' (by decide), SparseCore.bigSep_insert' (by decide), bigSep_singleton]

/-- The launch valuation, and the valuation before the call: the re-laid index word written. -/
def V0 (d : Dev nD) : Valuation τ sig (Elt F) := fun b => m (d, b)
def V1 (d : Dev nD) : Valuation τ sig (Elt F) := (opRs (F := F)).result (V0 m d)

theorem unscoped_held (d : Dev nD) : (unscopedBufs d (fun b => m ((SparseCore.T d).loc b)) : sProp 𝕄) = held (T d) S4 (V0 m d) := by
  rw [unscopedBufs_eq, held_S4]; rfl

theorem V1_a (d : Dev nD) : V1 m d a' = m (aLoc d) :=
  (opRs (F := F)).result_of_not_mem _ (show a' ∉ ({i'} : Finset (DevRef τ sig)) by decide)
theorem V1_t (d : Dev nD) : V1 m d t' = m (tLoc d) :=
  (opRs (F := F)).result_of_not_mem _ (show t' ∉ ({i'} : Finset (DevRef τ sig)) by decide)
theorem V1_o (d : Dev nD) : V1 m d o' = m (oLoc d) :=
  (opRs (F := F)).result_of_not_mem _ (show o' ∉ ({i'} : Finset (DevRef τ sig)) by decide)
/-- Where the index scalar holds sixteen, its re-laid copy holds sixteen. -/
theorem V1_i (d : Dev nD) (hidx : m (aLoc d) = fun _ => (16#32 : BitVec 32)) : V1 m d i' = sixteen (F := F) d := by
  unfold V1
  rw [StableHlo.reshape_result]
  funext i
  show shapeCast S1 (m (aLoc d)) shapeCasts_S_S1 i = (16#32 : BitVec 32)
  rw [hidx]; rfl

theorem held_V1 (d : Dev nD) (hidx : m (aLoc d) = fun _ => (16#32 : BitVec 32)) :
    (held (T d) S4 ((opRs (F := F)).result (V0 m d)) : sProp 𝕄)
      = iprop((aLoc d ↦{fullShare} m (aLoc d)) ∗ tPts m d ∗ iPts (F := F) d ∗ oLoc d ↦{fullShare} m (oLoc d)) := by
  show held (SparseCore.T d) S4 (V1 m d) = _
  rw [held_S4, V1_a, V1_t, V1_o, V1_i m d hidx]

theorem st0_eq (d : Dev nD) : (bigSep Finset.univ fun c : Fin ((K (F := F)).nCore 0) => (P m).st 0 d c) = iprop(iPts (F := F) d ∗ tPts m d ∗ ∃ f, oPts d f) :=
  bigSep_univ_of_subsingleton (0 : Fin 1)
theorem dn0_eq (d : Dev nD) : (bigSep Finset.univ fun c : Fin ((K (F := F)).nCore 0) => (P m).dn 0 d c) = iprop(iPts (F := F) d ∗ tPts m d ∗ oPts d (rowOut m d)) :=
  bigSep_univ_of_subsingleton (0 : Fin 1)

theorem hRs : (opRs (F := F)).bufs ⊆ S4 := show ({a', i'} : Finset (DevRef τ sig)) ⊆ S4 by decide

/-- What @main leaves the claim: the index scalar and the table at their launch contents, the result at row sixteen. -/
abbrev FIN (d : Dev nD) : sProp 𝕄 := iprop((aLoc d ↦{fullShare} m (aLoc d)) ∗ tPts m d ∗ oPts d (rowOut m d))

/-- @main on device `d`'s TensorCore: the re-laying of the index scalar, then the call, from the index word, the table
    and the result array, which come back with the result written. -/
theorem hmain (hidx : ∀ d, m (aLoc d) = fun _ => (16#32 : BitVec 32)) (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  iapply (wp_hlo_within 𝒱 (SparseCore.T d) none Set.univ (op := opRs) (S := S4) hRs (V := V0 m d)) $$ [Hb Hheld]
  · isplitl [Hb] <;> iassumption
  iintro ⟨Hb, Hheld⟩
  rw [wp_ret]; imodintro
  ihave Hh := (Entails.of_eq (held_V1 (F := F) m d (hidx d))) $$ Hheld
  icases Hh with ⟨Ha, Ht, Hi, Ho⟩
  iapply ((K (F := F)).wp_run (D (F := F)) 𝒱 (EH := EH) (P := P m) κ d 0) $$ [Hst Ht Hi Ho Hb Ha]
  isplitr; · iexact Hctx
  isplitl [Hst]; · iexact Hst
  isplitl [Hi Ht Ho]
  · rw [st0_eq]
    isplitl [Hi]; · iexact Hi
    isplitl [Ht]; · iexact Ht
    iexists _; iexact Ho
  iintro ⟨Hst, Hdn⟩
  ihave Hdn' := (Entails.of_eq (dn0_eq m d)) $$ Hdn
  icases Hdn' with ⟨-, Ht, Ho⟩
  imodintro
  isplitl [Hst]; · iexact Hst
  isplitl [Ha]; · iexact Ha
  isplitl [Ht]; · iexact Ht
  iexact Ho

def fq (d : Dev nD) (s' : Phys nD τ sig (Elt F)) : Prop :=
  s'.mem.mem (oLoc d) = rowOut m d ∧ s'.mem.mem (aLoc d) = m (aLoc d) ∧ s'.mem.mem (tLoc d) = m (tLoc d)

theorem hfin (d : Dev nD) (s' : Phys nD τ sig (Elt F)) : iprop(FIN m d ∗ SI s') ⊢ (⌜fq m d s'⌝ : sProp 𝕄) := by
  iintro ⟨⟨Ha, Ht, Ho⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := tLoc d) (I := Finset.univ) (q := fullShare) (f := m (tLoc d)))) $$ [HSI Ht]
  · isplitl [HSI] <;> iassumption
  icases H with ⟨%h2, HSI, -⟩
  ihave H := (SI_pointsTo_agree (st := s') (ℓ := oLoc d) (I := Finset.univ) (q := fullShare) (f := rowOut m d)) $$ [HSI Ho]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

/-- The post: the result array holds row sixteen of the table, the two arguments are unchanged. -/
def QC : PUnit × MemSt nD τ sig (Elt F) → Prop := fun r => ∀ c : Dev nD,
  r.2.mem (oLoc c) = rowOut m c ∧ r.2.mem (aLoc c) = m (aLoc c) ∧ r.2.mem (tLoc c) = m (tLoc c)

/-- Every weakly fair execution of the device's threads from a memory whose index scalar holds sixteen terminates,
    nothing faulting, with the result at row sixteen of the table and the arguments unchanged. -/
theorem run_main [∀ e, Nonempty (Elt F e)] (hidx : ∀ d, m (aLoc d) = fun _ => (16#32 : BitVec 32)) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q _ => match q with | 0 => scalarObl m)
    (fun q hq => match q with | 0 => nomatch hq)
    (fun q hq => match q with | 0 => nomatch hq)
    m ρ main (fun _ => iprop(emp)) (FIN m) (u₀ (F := F)) (sep_elim_left.trans (hu₀ m)) (hmain m ρ hidx) (fq m) (hfin m) (QC m) (fun _ h => h)

end Cert.Proof.KernelIdealRun

end
-- ==== Proof.RefRun.lean ====
/-
  The reference program's run, read back. Its @main is one call of the row-lookup function, whose body is a straight
  line of eighteen operations around one call of the three-way select function (one more operation): once the two
  bodies are unfolded at their call sites, @main is the sequence `ops` of nineteen operations over the call's own
  buffers. Every weakly fair execution of that sequence terminates, and the result buffer ends at the operations'
  composed term `term` of the two argument buffers' launch contents, the arguments unchanged.

  `term idx tbl`: the index is wrapped (`idx + 32` when negative), made a one-element vector, tested for
  `0 ≤ · ≤ 31`; the table's row at the (clamped) wrapped index is gathered; the result is that row where the test
  holds and a constant row elsewhere.
-/
import proofs.«219459_g11441792877034_week1_w4_526_11_alg».proof.Proof.Gen.ReferenceIdeal
import Idealize.ShloMosaic.Lib.StableHlo.Run

noncomputable section

namespace Cert.Proof.Ref

open Cert.ReferenceIdeal Idealize.ShloMosaic Idealize.ShloMosaic.TcCoe Idealize.SL.Sem Idealize.ShloMosaic.StableHlo

variable {F : FTy → Type} [FloatOps F]

/-- The gather's dimension numbers: the start index names the table's row axis, which is collapsed; the result's one
    axis is the table's column axis, the slice one whole row. -/
abbrev rowDims : GatherDims S32x4096 S1 S4096 := gather_S32x4096_S1_S4096_0_0_n_n_0_0_14096

/-- The wrapped index: `idx + 32` where `idx < 0`, else `idx`. -/
def wrapped (idx : IVec S_ 32) : IVec S_ 32 :=
  select (cmpi .slt idx (constantI S_ 32 0#32)) (addi idx (constantI S_ 32 32#32)) idx

/-- The wrapped index as a one-element vector: the gather's start indices. -/
def start (idx : IVec S_ 32) : IVec S1 32 := broadcastInDim S1 ![] Facts₀.bcast_S_S1 (wrapped idx)

/-- The range test `0 ≤ start ≤ 31`, reduced by `and` over its one element. -/
def inRange (idx : IVec S_ 32) : IVec S_ 1 :=
  Host.reduce IntOp.andi
    (andi (cmpi .sge (start idx) (broadcastInDim S1 ![] Facts₀.bcast_S_S1 (constantI S_ 32 0#32)))
      (cmpi .sle (start idx) (constantI S1 32 31#32)))
    (constantI S_ 1 1#1) Facts₀.reducesTo_S1_S_d0 Facts₀.h_S_

/-- What the program computes of its arguments' contents: the gathered row where the range test holds, the constant
    row elsewhere. -/
def term (idx : IVec S_ 32) (tbl : FVec F S32x4096 .f32) : FVec F S4096 .f32 :=
  select (broadcastInDim S4096 ![] Facts₀.bcast_S_S4096 (inRange idx))
    (Host.gather rowDims tbl (start idx))
    (broadcastInDim S4096 ![] Facts₀.bcast_S_S4096 (constant S_ .f32 0x7FC00000#32))

/-- @main's nineteen operations, in order: the row-lookup function's, with the select function's one operation in the
    place of its call, each over the buffers the call names. -/
abbrev ops : List (HloOp τ sig (Elt F)) :=
  [ TRef.nullary main_call0.c (constantI S_ 32 0#32),
    TRef.binary (.of main_arg0) main_call0.c main_call0.v0 (cmpi .slt),
    TRef.nullary main_call0.c_0 (constantI S_ 32 32#32),
    TRef.binary (.of main_arg0) main_call0.c_0 main_call0.v1 addi,
    TRef.ternary main_call0.v0 main_call0.v1 (.of main_arg0) main_call0.call0.v0 select,
    TRef.unary main_call0.call0.v0 main_call0.v3 (broadcastInDim S1 ![] Facts₀.bcast_S_S1),
    TRef.nullary main_call0.c_1 (constantI S1 32 31#32),
    TRef.nullary main_call0.c_2 (constantI S_ 32 0#32),
    TRef.unary main_call0.c_2 main_call0.v4 (broadcastInDim S1 ![] Facts₀.bcast_S_S1),
    TRef.binary main_call0.v3 main_call0.v4 main_call0.v5 (cmpi .sge),
    TRef.binary main_call0.v3 main_call0.c_1 main_call0.v6 (cmpi .sle),
    TRef.binary main_call0.v5 main_call0.v6 main_call0.v7 andi,
    TRef.nullary main_call0.c_3 (constantI S_ 1 1#1),
    TRef.binary main_call0.v7 main_call0.c_3 main_call0.v8
      (fun x v => Host.reduce IntOp.andi x v Facts₀.reducesTo_S1_S_d0 Facts₀.h_S_),
    TRef.binary (.of main_arg1) main_call0.v3 main_call0.v9
      (fun x i => Host.gather gather_S32x4096_S1_S4096_0_0_n_n_0_0_14096 x i),
    TRef.unary main_call0.v8 main_call0.v10 (broadcastInDim S4096 ![] Facts₀.bcast_S_S4096),
    TRef.nullary main_call0.cst (constant S_ .f32 0x7FC00000#32),
    TRef.unary main_call0.cst main_call0.v11 (broadcastInDim S4096 ![] Facts₀.bcast_S_S4096),
    TRef.ternary main_call0.v10 main_call0.v9 main_call0.v11 main_call0.v12 select ]

set_option maxRecDepth 1024 in
/-- @main is that straight line: the two functions' bodies unfolded at their calls, both sides are one chain of steps
    once sequencing is reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., binary_bufs_sub .., nullary_bufs_sub .., binary_bufs_sub .., ternary_bufs_sub ..,
    unary_bufs_sub .., nullary_bufs_sub .., nullary_bufs_sub .., unary_bufs_sub .., binary_bufs_sub ..,
    binary_bufs_sub .., binary_bufs_sub .., nullary_bufs_sub .., binary_bufs_sub .., binary_bufs_sub ..,
    unary_bufs_sub .., nullary_bufs_sub .., unary_bufs_sub .., ternary_bufs_sub ..⟩

/-- On every device, for any float values, from any memory with zero counters: every weakly fair execution of @main
    terminates with the result at `term` of the arguments' launch contents and the arguments unchanged. -/
theorem run_term (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v0)
          = term (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v0).trans (by after_results; rfl),
      (h c main_arg0).trans (by after_results),
      (h c main_arg1).trans (by after_results)⟩)
    (run_seq scopedRefs_eq scopedSems_eq defs main (fun _ => ops) main_eq (fun _ => ops_sub) m ρ)

end Cert.Proof.Ref

end
-- ==== Proof.RefValue.lean ====
/-
  The reference's result, named. With the index input at 16 the wrapped index is 16 (it is not negative), the range
  test `0 ≤ 16 ≤ 31` holds at its one element, so the `and`-reduction is 1 and the select keeps the gathered row
  everywhere; the gather clamps the start index into [0, 31], where 16 stays 16, and reads, at result coordinate
  `j`, the table's entry `(16, j)`. So the composed term is row sixteen of the table, and the run ends there.
-/
import proofs.«219459_g11441792877034_week1_w4_526_11_alg».proof.Proof.RefRun
import proofs.«219459_g11441792877034_week1_w4_526_11_alg».proof.Proof.Spec
import Idealize.ShloMosaic.PureOps.Reduce
import Idealize.ShloMosaic.PureOps.Ideal
import Idealize.ShloMosaic.Lib.ValueIdx

noncomputable section

namespace Cert.Proof.Ref

open Cert.ReferenceIdeal Idealize.ShloMosaic Idealize.ShloMosaic.ValueIdx Idealize.SL.Sem

variable {F : FTy → Type} [FloatOps F]

/-- A left fold by `and` from 1 over words that are all 1 is 1. -/
theorem foldl_andi_ones {ι : Type} (x : ι → BitVec 1) (hx : ∀ i, x i = 1#1) :
    ∀ l : List ι, l.foldl (fun r i => IntOp.andi r (x i)) 1#1 = 1#1
  | [] => rfl
  | a :: l => by
    rw [List.foldl_cons, hx a, show IntOp.andi 1#1 1#1 = 1#1 from by decide]
    exact foldl_andi_ones x hx l

/-- 16 is not negative: it is not wrapped. -/
theorem wrapped_16 : wrapped (fun _ => 16#32) = fun _ => 16#32 := by
  funext i
  show Scalar.select (IntOp.cmpi .slt 16#32 0#32) (IntOp.addi 16#32 32#32) 16#32 = 16#32
  decide

/-- The start indices' one element is 16. -/
theorem start_16 : start (fun _ => 16#32) = fun _ => 16#32 := by
  unfold start; rw [wrapped_16]; rfl

/-- `0 ≤ 16 ≤ 31`: the range test holds. -/
theorem inRange_16 : inRange (fun _ => 16#32) = fun _ => 1#1 := by
  funext j
  unfold inRange
  rw [start_16, Host.reduce_eq_foldl]
  refine foldl_andi_ones _ (fun i => ?_) _
  show IntOp.andi (IntOp.cmpi .sge 16#32 0#32) (IntOp.cmpi .sle 16#32 31#32) = 1#1
  decide

/-- THE GATHER READ AT `j`, the start index 16: the table's entry `(16, j)`. On the row axis the operand index is
    the start index clamped into [0, 31] (the axis is collapsed: no offset); on the column axis it is the result's
    coordinate (the start index map does not name it: start 0). -/
theorem gather_16 {α : Type} (tbl : S32x4096.Idx → α) (j : S4096.Idx) :
    Host.gather rowDims tbl (fun _ => 16#32 : IVec S1 32) j = tbl (ix2 (n0 := 32) (n1 := 4096) 16 (j 0)) := by
  unfold Host.gather
  congr 1
  funext a
  refine Fin.ext ?_
  match a with
  | ⟨0, _⟩ =>
    show rowDims.start j _ 0 + rowDims.batchCoord j 0 + rowDims.offCoord j 0 = 16
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (0 : Fin 2) ∈ rowDims.startIndexMap from List.mem_singleton.mpr rfl)]
    show min (16#32 : BitVec 32).toInt.toNat (S32x4096.size 0 - rowDims.sliceSizes 0) + 0 + 0 = 16
    decide
  | ⟨1, _⟩ =>
    show rowDims.start j _ 1 + rowDims.batchCoord j 1 + rowDims.offCoord j 1 = (j 0).val
    rw [GatherDims.batchCoord_eq_zero _ _ _ List.not_mem_nil]
    unfold GatherDims.start
    rw [dif_neg (show (1 : Fin 2) ∉ rowDims.startIndexMap from by decide)]
    unfold GatherDims.offCoord
    rw [dif_pos (show (1 : Fin 2) ∈ rowDims.sKept from by decide)]
    simp only [Nat.zero_add]
    exact congrArg (fun k => (j k).val) (Subsingleton.elim _ _)

/-- With the index at 16 the composed term is row sixteen of the table. -/
theorem term_16 (tbl : FVec F S32x4096 .f32) : term (fun _ => 16#32) tbl = Cert.Proof.Spec.row16 tbl := by
  funext j
  unfold term
  rw [inRange_16, start_16]
  show Scalar.select 1#1 (Host.gather rowDims tbl (fun _ => 16#32 : IVec S1 32) j) _ = _
  rw [select_one, gather_16]
  rfl

theorem run (m : (ℓ : Loc Cert.ReferenceIdeal.nD Cert.ReferenceIdeal.τ Cert.ReferenceIdeal.sig) → Buf (Elt Ideal) ℓ) (ρ : Dev Cert.ReferenceIdeal.nD → PrngReg)
    (hidx : ∀ c : Dev Cert.ReferenceIdeal.nD, m ((c.tc : Thread Cert.ReferenceIdeal.nD Cert.ReferenceIdeal.τ).loc Cert.ReferenceIdeal.main_arg0) = fun _ => 16#32) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v0)
            = Cert.Proof.Spec.row16 (m ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)) :=
  (θ_run _ _ _).mono (fun _ h c => by
      obtain ⟨h0, h1, h2⟩ := h c
      refine ⟨?_, h1, h2⟩
      rw [h0, hidx c]
      exact term_16 _)
    (run_term (F := Ideal) m ρ)

end Cert.Proof.Ref

end
-- ==== Proof.lean ====
/-
  The proof of `Cert.Claim`: the three frames, the (empty) idealization ledger, and the equality of the idealized
  kernel's and the idealized reference's results.

  The mathematics. The index input is pinned to sixteen by the precondition (`16 ≤ idx ≤ 16`; Proof/PreIdx.lean).
  The kernel copies the index word into a scalar scratch, loads it, clamps it into [0, 31] — sixteen stays sixteen —
  and copies that row of the 32 × 4096 table into the result. The reference wraps a negative index by 32, masks an
  index outside [0, 31] with NaN and gathers the row at the (clamped) index — at sixteen: no wrap, mask all true, row
  sixteen. Both results are therefore `Spec.row16` of the table (Proof/Spec.lean): entry `j` is the table's entry
  `(16, j)`. Table entries are only moved, never computed with, so finiteness is not used and the statement holds
  alike at the word-level and at the ideal instance.

  Proof/KernelRun.lean and Proof/KernelIdealRun.lean: the two printed kernel programs' runs over all of the device's
  threads, with the result array named (the same text over the two namespaces). Proof/RefRun.lean and
  Proof/RefValue.lean: the reference's run and its result at sixteen. The frames are those runs with the result
  dropped; the idealization ledger is empty.
-/
import proofs.«219459_g11441792877034_week1_w4_526_11_alg».proof.Defs
import proofs.«219459_g11441792877034_week1_w4_526_11_alg».proof.Proof.Gen.Kernel
import proofs.«219459_g11441792877034_week1_w4_526_11_alg».proof.Proof.Gen.Kernel.Skeleton
import proofs.«219459_g11441792877034_week1_w4_526_11_alg».proof.Proof.Gen.KernelIdeal
import proofs.«219459_g11441792877034_week1_w4_526_11_alg».proof.Proof.Gen.KernelIdeal.Skeleton
import proofs.«219459_g11441792877034_week1_w4_526_11_alg».proof.Proof.Gen.ReferenceIdeal
import proofs.«219459_g11441792877034_week1_w4_526_11_alg».proof.Proof.Gen.Pre_input_domain
import proofs.«219459_g11441792877034_week1_w4_526_11_alg».proof.Proof.PreIdx
import proofs.«219459_g11441792877034_week1_w4_526_11_alg».proof.Proof.KernelRun
import proofs.«219459_g11441792877034_week1_w4_526_11_alg».proof.Proof.KernelIdealRun
import proofs.«219459_g11441792877034_week1_w4_526_11_alg».proof.Proof.RefValue
import Idealize.ShloMosaic.Adequacy
import Idealize.ShloMosaic.Init

noncomputable section

namespace Cert.Proof

open Idealize.ShloMosaic Idealize.SL.Sem

/-- The word-level kernel program runs and leaves its arguments unchanged: its run with the result dropped. -/
theorem frame_k : Cert.frame_Kernel (hKernel := Cert.Kernel.Gen.facts) (hPre_input_domain := Cert.Pre_input_domain.Gen.facts) :=
  fun m g hpre =>
    (θ_run Cert.Kernel.defs _ _).mono (fun _ h c => (h c).2)
      (KernelRun.run_main (F := Bits) m g (fun d => PreIdx.idx_sixteen _ _ (hpre d)))

/-- The idealized kernel program likewise. -/
theorem frame_ki : Cert.frame_KernelIdeal (hKernelIdeal := Cert.KernelIdeal.Gen.facts) (hPre_input_domain := Cert.Pre_input_domain.Gen.facts) :=
  fun m g hpre =>
    (θ_run Cert.KernelIdeal.defs _ _).mono (fun _ h c => (h c).2)
      (KernelIdealRun.run_main (F := Ideal) m g (fun d => PreIdx.idx_sixteen _ _ (hpre d)))

/-- The reference runs and leaves its arguments unchanged: its run with the result dropped. -/
theorem frame_ri : Cert.frame_ReferenceIdeal (hReferenceIdeal := Cert.ReferenceIdeal.Gen.facts) (hPre_input_domain := Cert.Pre_input_domain.Gen.facts) :=
  fun m g hpre =>
    (θ_run Cert.ReferenceIdeal.defs _ _).mono (fun _ h c => (h c).2)
      (Ref.run m g (fun c => PreIdx.idx_sixteen _ _ (hpre c)))

/-- From memories that agree on the arguments both programs end with row sixteen of the table in their result. -/
theorem algebraic : Cert.algebraic_KernelIdeal_ReferenceIdeal (hKernelIdeal := Cert.KernelIdeal.Gen.facts)
    (hReferenceIdeal := Cert.ReferenceIdeal.Gen.facts) (hPre_input_domain := Cert.Pre_input_domain.Gen.facts) := by
  intro m g m' g' hpre hagree
  refine ⟨fun c => Spec.row16 (m ((c.tc : Thread Cert.KernelIdeal.nD Cert.KernelIdeal.τ).loc Cert.KernelIdeal.main_arg1)), ?_, ?_⟩
  · exact (θ_run Cert.KernelIdeal.defs _ _).mono (fun _ h c => h c)
      (KernelIdealRun.run_main (F := Ideal) m g (fun d => PreIdx.idx_sixteen _ _ (hpre d)))
  · refine (θ_run Cert.ReferenceIdeal.defs _ _).mono (fun _ h c => ⟨?_, (h c).2.1, (h c).2.2⟩)
      (Ref.run m' g' (fun c => by rw [(hagree c).1]; exact PreIdx.idx_sixteen _ _ (hpre c)))
    rw [(h c).1, (hagree c).2]

theorem claim : Cert.Claim :=
  ⟨Cert.Kernel.Gen.facts, Cert.KernelIdeal.Gen.facts, Cert.ReferenceIdeal.Gen.facts, Cert.Pre_input_domain.Gen.facts,
    frame_k, frame_ki, frame_ri, trivial, algebraic⟩

end Cert.Proof

end
